-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x1 .f32) (main_arg9 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S4000x128 : Shape := ⟨2, ![4000, 128]⟩
abbrev S1x128 : Shape := ⟨2, ![1, 128]⟩
abbrev S4000x1 : Shape := ⟨2, ![4000, 1]⟩
abbrev S1x1 : Shape := ⟨2, ![1, 1]⟩

abbrev nBuf : Space → Nat
  | .hbm => 61
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S40000x128, .f32⟩
  | .hbm, ⟨37, _⟩ => ⟨S640000x1, .i32⟩
  | .hbm, ⟨38, _⟩ => ⟨S40000x128, .f32⟩
  | .hbm, ⟨39, _⟩ => ⟨S40000x1, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S_, .f32⟩
  | .hbm, ⟨53, _⟩ => ⟨S40000x128, .f32⟩
  | .hbm, ⟨54, _⟩ => ⟨S640000x1, .i32⟩
  | .hbm, ⟨55, _⟩ => ⟨S40000x128, .f32⟩
  | .hbm, ⟨56, _⟩ => ⟨S40000x1, .f32⟩
  | .hbm, ⟨57, _⟩ => ⟨S40000x128, .f32⟩
  | .hbm, ⟨58, _⟩ => ⟨S40000x128, .f32⟩
  | .hbm, ⟨59, _⟩ => ⟨S40000x128, .f32⟩
  | .hbm, ⟨60, _⟩ => ⟨S40000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x1, .f32⟩
  | .local _ .vmem, ⟨21, _⟩ => ⟨S1, .f32⟩
  | .local _ .vmem, ⟨22, _⟩ => ⟨S4000x1, .f32⟩
  | .local _ .vmem, ⟨23, _⟩ => ⟨S4000x1, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S40000x128.size a
  hwx1_5 : ∀ i : grid1.Coords, EltTy.bits .f32 = 32 ∨ (Rect.block (s := S40000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1.size a ≤ S1.size a
  hwx2_2 : ∀ i : grid2.Coords, EltTy.bits .f32 = 32 ∨ (Rect.block (s := S1) S1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S40000x1.size a
  hwx2_3 : ∀ i : grid2.Coords, EltTy.bits .f32 = 32 ∨ (Rect.block (s := S40000x1) S4000x1.size (cc2_transform_3 i) (hinb2_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S4000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S_, .f32⟩
  | .hbm, ⟨28, _⟩ => ⟨S640000, .f32⟩
  | .hbm, ⟨29, _⟩ => ⟨S_, .f32⟩
  | .hbm, ⟨30, _⟩ => ⟨S40000, .f32⟩
  | .hbm, ⟨31, _⟩ => ⟨S640000x1, .i32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S40000x128, .f32⟩
  | .hbm, ⟨44, _⟩ => ⟨S40000x128, .f32⟩
  | .hbm, ⟨45, _⟩ => ⟨S_, .f32⟩
  | .hbm, ⟨46, _⟩ => ⟨S40000x128, .f32⟩
  | .hbm, ⟨47, _⟩ => ⟨S40000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S40000x128, .f32⟩
  | .hbm, ⟨59, _⟩ => ⟨S640000x1, .i32⟩
  | .hbm, ⟨60, _⟩ => ⟨S40000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S40000, .f32⟩
  | .hbm, ⟨65, _⟩ => ⟨S640000x1, .i32⟩
  | .hbm, ⟨66, _⟩ => ⟨S40000, .f32⟩
  | .hbm, ⟨67, _⟩ => ⟨S_, .f32⟩
  | .hbm, ⟨68, _⟩ => ⟨S40000, .f32⟩
  | .hbm, ⟨69, _⟩ => ⟨S40000, .f32⟩
  | .hbm, ⟨70, _⟩ => ⟨S40000x1, .f32⟩
  | .hbm, ⟨71, _⟩ => ⟨S40000x128, .f32⟩
  | .hbm, ⟨72, _⟩ => ⟨S40000x128, .f32⟩
  | .hbm, ⟨73, _⟩ => ⟨S40000x128, .f32⟩
  | .hbm, ⟨74, _⟩ => ⟨S1x128, .f32⟩
  | .hbm, ⟨75, _⟩ => ⟨S40000x128, .f32⟩
  | .hbm, ⟨76, _⟩ => ⟨S40000x128, .f32⟩
  | .hbm, ⟨77, _⟩ => ⟨S40000x128, .f32⟩
  | .hbm, ⟨78, _⟩ => ⟨S40000x128, .f32⟩
  | .hbm, ⟨79, _⟩ => ⟨S_, .f32⟩
  | .hbm, ⟨80, _⟩ => ⟨S40000x128, .f32⟩
  | .hbm, ⟨81, _⟩ => ⟨S40000x128, .f32⟩
  | .hbm, ⟨82, _⟩ => ⟨S40000x1, .f32⟩
  | .hbm, ⟨83, _⟩ => ⟨S1x1, .f32⟩
  | .hbm, ⟨84, _⟩ => ⟨S40000x1, .f32⟩
  | .hbm, ⟨85, _⟩ => ⟨S40000x1, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S1_S1x1_1 : S1.BroadcastsInDim S1x1 (![1] : Fin 1 → Fin S1x1.rank)
  bcast_S1x1_S40000x1_0_1 : S1x1.BroadcastsInDim S40000x1 (![0, 1] : Fin 2 → Fin S40000x1.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []
  dot_S40000x128_S128x1_S40000x1_1_0_0_1_n_n_wf : DotDims.WF S40000x128 S128x1 S40000x1 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x1_S40000x1_1_0_0_1_n_n : DotDims S40000x128 S128x1 S40000x1 where
  lhsContracting := [1]
  rhsContracting := [0]
  lhsNonContracting := [0]
  rhsNonContracting := [1]
  lhsBatch := []
  rhsBatch := []
  wf := dot_S40000x128_S128x1_S40000x1_1_0_0_1_n_n_wf

class Facts : Prop extends Facts₀ where

variable [Facts]
-- ==== Proof.KernelRun.lean ====
/-
  The idealized kernel's run with its result named.

  @main is five segments: the host operations that compute the in-degrees, their reciprocals and the first
  neighbourhood means; the first layer's region; the host operations that compute the second means from the first
  layer's output; the second layer's region; the read-out's region. The buffer contents at the segment boundaries are a
  fold from the launch memory (`Gen.W0` … `Gen.W5`). Every weakly fair execution terminates, without a fault, with
  the result array at what the fold's last stage holds there, and with the argument arrays as launched.
-/
import proofs.«133150_j34600256537252_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, nothing faulting; the result array ends at the contents
    the boundary fold gives it after the last region (`Gen.W5`), and each argument array ends as launched: the segments'
    run, the last thread state read against the final state, the result's buffer being one of the unscoped ones. -/
theorem run : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.LibBatchNorm.lean ====
/-
  Finiteness on the extended reals.

  At the ideal instance a float is an extended real and every operation is exact, but the
  extended reals are not a field: ⊤ − ⊤ = ⊥, 0 · ⊤ = 0. An algebraic identity between two
  programs therefore holds only where every intermediate value is FINITE, i.e. the coercion
  of a real number. This module defines that predicate, IsReal, and proves that it is closed
  under the operations a normalising network uses: sum, difference, product, maximum, finite
  sums (so matrix-product entries), choice between two finite values, the quotient by a
  nonzero finite value, and the reciprocal square root of a positive finite value. It also
  evaluates the four 32-bit float words 0, 1, 80000 and 10995116 · 2⁻⁴⁰ (and +∞) as extended
  reals, and relates IsReal to the test |x| < +∞.
-/
import Idealize.ShloMosaic.PureOps.Ideal

noncomputable section

namespace Cert.LibBatchNorm

open Idealize.ShloMosaic
open scoped BigOperators

/-! ## The predicate -/

/-- An extended real is FINITE when it is (the coercion of) a real number. -/
def IsReal (x : EReal) : Prop := ∃ a : ℝ, x = (a : EReal)

/-- A real number is finite. -/
theorem isReal_coe (a : ℝ) : IsReal (a : EReal) := ⟨a, rfl⟩

/-- 0 is finite. -/
theorem isReal_zero : IsReal (0 : EReal) := ⟨0, rfl⟩

/-- 1 is finite. -/
theorem isReal_one : IsReal (1 : EReal) := ⟨1, rfl⟩

/-- x is finite iff it is neither −∞ nor +∞. -/
theorem isReal_iff {x : EReal} : IsReal x ↔ x ≠ ⊥ ∧ x ≠ ⊤ := by
  constructor
  · rintro ⟨a, rfl⟩; exact ⟨EReal.coe_ne_bot a, EReal.coe_ne_top a⟩
  · rintro ⟨hb, ht⟩
    induction x using EReal.rec with
    | bot => exact absurd rfl hb
    | coe a => exact ⟨a, rfl⟩
    | top => exact absurd rfl ht

/-- If |x| = max x (−x) is below +∞ then x is finite. -/
theorem isReal_of_abs_lt_top {x : EReal} (h : max x (-x) < ⊤) : IsReal x := by
  induction x using EReal.rec with
  | bot => exact absurd h (by simp)
  | coe a => exact ⟨a, rfl⟩
  | top => exact absurd h (by simp)

/-- A finite x has |x| = max x (−x) below +∞. -/
theorem abs_lt_top_of_isReal {x : EReal} (hx : IsReal x) : max x (-x) < ⊤ := by
  obtain ⟨a, rfl⟩ := hx
  exact max_lt (EReal.coe_lt_top a) (by rw [← EReal.coe_neg]; exact EReal.coe_lt_top _)

/-- The ordered "less than" comparison answers 1 exactly when x < y. -/
theorem cmp_olt_eq_one_iff (x y : EReal) : Ideal.cmp .olt x y = 1#1 ↔ x < y := by
  unfold Ideal.cmp
  by_cases h : x < y <;> simp [h]

/-! ## Closure under the arithmetic operations -/

/-- The sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a finite value is finite. -/
theorem IsReal.neg {x : EReal} (hx : IsReal x) : IsReal (-x) := by
  obtain ⟨a, rfl⟩ := hx; exact ⟨-a, (EReal.coe_neg a).symm⟩

/-- The maximum of two finite values is finite (it is one of them). -/
theorem IsReal.max {x y : EReal} (hx : IsReal x) (hy : IsReal y) : IsReal (max x y) := by
  rcases le_total x y with h | h
  · rwa [max_eq_right h]
  · rwa [max_eq_left h]

/-- The minimum of two finite values is finite (it is one of them). -/
theorem IsReal.min {x y : EReal} (hx : IsReal x) (hy : IsReal y) : IsReal (min x y) := by
  rcases le_total x y with h | h
  · rwa [min_eq_left h]
  · rwa [min_eq_right h]

/-- |x| = max x (−x) of a finite x is finite. -/
theorem isReal_abs {x : EReal} (hx : IsReal x) : IsReal (max x (-x)) := hx.max hx.neg

/-- A choice between two finite values is finite, whatever the condition. -/
theorem isReal_ite {c : Prop} [Decidable c] {x y : EReal} (hx : IsReal x) (hy : IsReal y) :
    IsReal (if c then x else y) := by
  split <;> assumption

/-- A Boolean choice between two finite values is finite. -/
theorem isReal_cond {c : Bool} {x y : EReal} (hx : IsReal x) (hy : IsReal y) :
    IsReal (bif c then x else y) := by
  cases c <;> assumption

/-- A selection by a one-bit condition between two finite values is finite. -/
theorem isReal_select (c : BitVec 1) {x y : EReal} (hx : IsReal x) (hy : IsReal y) :
    IsReal (Scalar.select c x y) := isReal_ite hx hy

/-! ## Finite sums -/

/-- The coercion ℝ → [−∞, +∞] commutes with finite sums. -/
theorem coe_finset_sum {ι : Type*} (s : Finset ι) (a : ι → ℝ) :
    ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A sum over a finite set of finite values is finite. -/
theorem isReal_finset_sum {ι : Type*} (s : Finset ι) (f : ι → EReal) (h : ∀ i ∈ s, IsReal (f i)) :
    IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- A sum over a finite index type of finite values is finite. -/
theorem isReal_sum {ι : Type*} [Fintype ι] (f : ι → EReal) (h : ∀ i, IsReal (f i)) : IsReal (∑ i, f i) :=
  isReal_finset_sum _ _ fun i _ => h i

/-- An entry Σₖ aₖ · bₖ of a matrix product of finite matrices is finite. -/
theorem isReal_sum_mul {κ : Type*} [Fintype κ] (a b : κ → EReal) (ha : ∀ k, IsReal (a k)) (hb : ∀ k, IsReal (b k)) :
    IsReal (∑ k, a k * b k) :=
  isReal_sum _ fun k => (ha k).mul (hb k)

/-- A finite accumulator plus an entry Σₖ aₖ · bₖ of a product of finite matrices is finite. -/
theorem isReal_add_sum_mul {κ : Type*} [Fintype κ] {c : EReal} (hc : IsReal c) (a b : κ → EReal)
    (ha : ∀ k, IsReal (a k)) (hb : ∀ k, IsReal (b k)) : IsReal (c + ∑ k, a k * b k) :=
  hc.add (isReal_sum_mul a b ha hb)

/-- The contraction acc j + Σₖ lhs(j,k) · rhs(k,j) of finite operands onto a finite accumulator is finite at every index. -/
theorem isReal_matmul {sl sr so : Shape} (d : DotDims sl sr so) (lhs : sl.Idx → EReal) (rhs : sr.Idx → EReal)
    (acc : so.Idx → EReal) (hl : ∀ i, IsReal (lhs i)) (hr : ∀ i, IsReal (rhs i)) (ha : ∀ j, IsReal (acc j)) (j : so.Idx) :
    IsReal (Ideal.matmul d lhs rhs acc j) :=
  isReal_add_sum_mul (ha j) _ _ (fun _ => hl _) (fun _ => hr _)

/-- The contraction Σₖ lhs(j,k) · rhs(k,j) of finite operands is finite at every index. -/
theorem isReal_mxuPass {sl sr so : Shape} (d : DotDims sl sr so) (lhs : sl.Idx → EReal) (rhs : sr.Idx → EReal)
    (hl : ∀ i, IsReal (lhs i)) (hr : ∀ i, IsReal (rhs i)) (j : so.Idx) : IsReal (Ideal.mxuPass d lhs rhs j) :=
  isReal_sum_mul _ _ (fun _ => hl _) (fun _ => hr _)

/-- A finite initial value plus the sum of the finite elements that reduce to an index is finite. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) :=
  hi.add (isReal_finset_sum _ _ fun i _ => hx i)

/-- The sum of the finite elements that reduce to an index is finite. -/
theorem isReal_reduceAdd {s : Shape} {axes : List (Fin s.rank)} {t : Shape} (h : s.Reduces axes t)
    (x : s.Idx → EReal) (hx : ∀ i, IsReal (x i)) (j : t.Idx) : IsReal (Ideal.reduceAdd h x j) :=
  isReal_finset_sum _ _ fun i _ => hx i

/-- A finite element plus the sum of the finite updates that land on it is finite. -/
theorem isReal_hostScatterAdd {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) :=
  (hx i).add (isReal_finset_sum _ _ fun j _ => hu j)

/-! ## Quotients -/

/-- The quotient of two reals with a nonzero divisor, computed on the extended reals, is their real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- A finite value times a real is finite. -/
theorem IsReal.mul_coe {x : EReal} (hx : IsReal x) (c : ℝ) : IsReal (x * (c : EReal)) := hx.mul (isReal_coe c)

/-- The quotient of a finite value by a nonzero real is finite. -/
theorem IsReal.div_coe {x : EReal} (hx : IsReal x) {b : ℝ} (hb : b ≠ 0) : IsReal (Ideal.div x (b : EReal)) := by
  rw [Ideal.div_coe hb]; exact hx.mul (isReal_coe _)

/-- The quotient of a finite value by a finite nonzero value is finite. -/
theorem IsReal.div {x y : EReal} (hx : IsReal x) (hy : IsReal y) (h0 : y ≠ 0) : IsReal (Ideal.div x y) := by
  obtain ⟨b, rfl⟩ := hy
  exact hx.div_coe (fun hb => h0 (by rw [hb]; rfl))

/-- The quotient of a finite value by a finite positive value is finite. -/
theorem IsReal.div_of_pos {x y : EReal} (hx : IsReal x) (hy : IsReal y) (h0 : 0 < y) : IsReal (Ideal.div x y) :=
  hx.div hy h0.ne'

/-! ## The reciprocal square root -/

/-- At a positive real a the reciprocal square root is the real (√a)⁻¹. -/
theorem rsqrt_coe_pos {a : ℝ} (ha : 0 < a) : Ideal.rsqrt (a : EReal) = (((Real.sqrt a)⁻¹ : ℝ) : EReal) := by
  rw [Ideal.rsqrt_coe, if_neg (not_lt.2 ha.le), if_neg ha.ne']

/-- (√a)⁻¹ is positive for a positive real a. -/
theorem inv_sqrt_pos {a : ℝ} (ha : 0 < a) : 0 < (Real.sqrt a)⁻¹ := inv_pos.2 (Real.sqrt_pos.2 ha)

/-- The reciprocal square root of a positive real is finite. -/
theorem isReal_rsqrt_coe_pos {a : ℝ} (ha : 0 < a) : IsReal (Ideal.rsqrt (a : EReal)) := ⟨_, rsqrt_coe_pos ha⟩

/-- The reciprocal square root of a finite positive value is finite. -/
theorem IsReal.rsqrt_of_pos {x : EReal} (hx : IsReal x) (hpos : 0 < x) : IsReal (Ideal.rsqrt x) := by
  obtain ⟨a, rfl⟩ := hx
  exact isReal_rsqrt_coe_pos (EReal.coe_pos.1 hpos)

/-- For reals v ≥ 0 and e > 0 the reciprocal square root of v + e is finite. -/
theorem isReal_rsqrt_add {v e : ℝ} (hv : 0 ≤ v) (he : 0 < e) : IsReal (Ideal.rsqrt ((v : EReal) + (e : EReal))) := by
  rw [← EReal.coe_add]; exact isReal_rsqrt_coe_pos (add_pos_of_nonneg_of_pos hv he)

/-- For reals v ≥ 0 and e > 0 the reciprocal square root of v + e is the real (√(v + e))⁻¹. -/
theorem rsqrt_add_eq {v e : ℝ} (hv : 0 ≤ v) (he : 0 < e) :
    Ideal.rsqrt ((v : EReal) + (e : EReal)) = (((Real.sqrt (v + e))⁻¹ : ℝ) : EReal) := by
  rw [← EReal.coe_add]; exact rsqrt_coe_pos (add_pos_of_nonneg_of_pos hv he)

/-- If x is a nonnegative real and y a positive real then the reciprocal square root of x + y is finite. -/
theorem isReal_rsqrt_add_of {x y : EReal} (hx : ∃ v : ℝ, 0 ≤ v ∧ x = (v : EReal)) (hy : ∃ e : ℝ, 0 < e ∧ y = (e : EReal)) :
    IsReal (Ideal.rsqrt (x + y)) := by
  obtain ⟨v, hv, rfl⟩ := hx; obtain ⟨e, he, rfl⟩ := hy; exact isReal_rsqrt_add hv he

/-- The same for the float operations' reciprocal square root of a float sum, at the ideal instance. -/
theorem isReal_floatOps_rsqrt_add_of {φ : FTy} {x y : Ideal φ} (hx : ∃ v : ℝ, 0 ≤ v ∧ x = (v : EReal))
    (hy : ∃ e : ℝ, 0 < e ∧ y = (e : EReal)) : IsReal (FloatOps.rsqrt (FloatOps.addf x y)) :=
  isReal_rsqrt_add_of hx hy

/-- The same for the host's one-operand reciprocal square root of a float sum, at the ideal instance. -/
theorem isReal_hostUnary_rsqrt_add_of {φ : FTy} {x y : Ideal φ} (hx : ∃ v : ℝ, 0 ≤ v ∧ x = (v : EReal))
    (hy : ∃ e : ℝ, 0 < e ∧ y = (e : EReal)) : IsReal (FloatOps.hostUnary .rsqrt (FloatOps.addf x y)) :=
  isReal_rsqrt_add_of hx hy

/-! ## Four float words as extended reals -/

/-- The 32-bit word 0x00000000 denotes 0. -/
theorem ofBits_f32_zero : Ideal.ofBits .f32 0x00000000#32 = 0 := by
  simp [Ideal.ofBits, Ideal.ieee]

/-- The 32-bit word 0x3F800000 denotes 1. -/
theorem ofBits_f32_one : Ideal.ofBits .f32 0x3F800000#32 = 1 := by
  simp [Ideal.ofBits, Ideal.ieee, -EReal.coe_mul]; norm_num

/-- The 32-bit word 0x479C4000 denotes the real 80000. -/
theorem ofBits_f32_80000 : Ideal.ofBits .f32 0x479C4000#32 = ((80000 : ℝ) : EReal) := by
  simp [Ideal.ofBits, Ideal.ieee, -EReal.coe_mul]; norm_num

/-- The 32-bit word 0x3727C5AC (about 10⁻⁵) denotes the real 10995116 / 2⁴⁰. -/
theorem ofBits_f32_eps : Ideal.ofBits .f32 0x3727C5AC#32 = ((10995116 / 2 ^ 40 : ℝ) : EReal) := by
  simp [Ideal.ofBits, Ideal.ieee, -EReal.coe_mul]; norm_num

/-- The 32-bit word 0x7F800000 denotes +∞. -/
theorem ofBits_f32_inf : Ideal.ofBits .f32 0x7F800000#32 = ⊤ := by
  simp [Ideal.ofBits, Ideal.ieee]

/-- 10995116 / 2⁴⁰ is positive. -/
theorem eps_pos : (0 : ℝ) < 10995116 / 2 ^ 40 := by positivity

/-- The word 0x00000000 denotes a finite value. -/
theorem isReal_ofBits_f32_zero : IsReal (Ideal.ofBits .f32 0x00000000#32) := ofBits_f32_zero ▸ isReal_zero

/-- The word 0x3F800000 denotes a finite value. -/
theorem isReal_ofBits_f32_one : IsReal (Ideal.ofBits .f32 0x3F800000#32) := ofBits_f32_one ▸ isReal_one

/-- The word 0x479C4000 denotes a finite value. -/
theorem isReal_ofBits_f32_80000 : IsReal (Ideal.ofBits .f32 0x479C4000#32) := ⟨_, ofBits_f32_80000⟩

/-- The word 0x3727C5AC denotes a finite value. -/
theorem isReal_ofBits_f32_eps : IsReal (Ideal.ofBits .f32 0x3727C5AC#32) := ⟨_, ofBits_f32_eps⟩

/-- The word 0x3727C5AC denotes a positive real. -/
theorem ofBits_f32_eps_pos : ∃ e : ℝ, 0 < e ∧ Ideal.ofBits .f32 0x3727C5AC#32 = (e : EReal) :=
  ⟨_, eps_pos, ofBits_f32_eps⟩

/-- 80000 is not 0. -/
theorem eighty_thousand_ne_zero : (80000 : ℝ) ≠ 0 := by norm_num

/-- If the comparison |x| < (the word 0x7F800000, that is +∞) answers 1, then x is finite. -/
theorem isReal_of_cmp_abs_lt_inf {x : EReal}
    (h : Ideal.cmp .olt (max x (-x)) (Ideal.ofBits .f32 0x7F800000#32) = 1#1) : IsReal x := by
  rw [ofBits_f32_inf, cmp_olt_eq_one_iff] at h
  exact isReal_of_abs_lt_top h

end Cert.LibBatchNorm

end
-- ==== Proof.Spec.lean ====
/-
  The mathematics both programs compute, stated once over the literal shapes, with no program in sight.

  A GraphSAGE layer sends node features `X` (40000 nodes, 128 features) and their neighbourhood means `A` to
  `relu (A · Wl + X · Wr + b)`: entry `(n, f)` is the larger of `0` and
  `(∑ k, A n k * Wl k f) + (∑ k, X n k * Wr k f) + b f`. The read-out is `H · Wo + bo`, one number per node.
  The neighbourhood mean divides a sum over incoming edges by `max deg 1`; one program multiplies by the
  reciprocal `1 / max deg 1` computed once, the other divides. On the extended reals these agree because the divisor
  is at least `1`, hence not `0`, and there `x / d` is `x * d⁻¹` by definition.
-/
import Idealize.ShloMosaic.PureOps.Ideal
import Idealize.ShloMosaic.Lib.ValueIdx
import proofs.«133150_j34600256537252_1_alg».proof.Proof.LibBatchNorm

noncomputable section

namespace Cert.Sage

open Idealize.ShloMosaic Idealize.ShloMosaic.ValueIdx
open scoped BigOperators

/-- The float word of `0.0`, as both programs spell it. -/
abbrev zeroW : EReal := Ideal.ofBits .f32 0x00000000#32
/-- The float word of `1.0`, as both programs spell it. -/
abbrev oneW : EReal := Ideal.ofBits .f32 0x3F800000#32

/-- One entry of a layer: `relu ((∑ k, a k * wl k) + (∑ k, x k * wr k) + b)`. -/
def layerAt (a x wl wr : Fin 128 → EReal) (b : EReal) : EReal :=
  max (((∑ k : Fin 128, a k * wl k) + ∑ k : Fin 128, x k * wr k) + b) zeroW

/-- A GraphSAGE layer over all 40000 nodes: entry `(n, f)` from row `n` of the means `A` and of the features `X`,
    column `f` of the two weight matrices, and `b f`. -/
def layer (A X : (⟨2, ![40000, 128]⟩ : Shape).Idx → EReal) (Wl : (⟨2, ![128, 128]⟩ : Shape).Idx → EReal)
    (b : (⟨1, ![128]⟩ : Shape).Idx → EReal) (Wr : (⟨2, ![128, 128]⟩ : Shape).Idx → EReal) :
    (⟨2, ![40000, 128]⟩ : Shape).Idx → EReal :=
  fun j => layerAt (fun k => A (ix2 (j 0) k)) (fun k => X (ix2 (j 0) k)) (fun k => Wl (ix2 k (j 1)))
    (fun k => Wr (ix2 k (j 1))) (b (ix1 (j 1)))

/-- The read-out over all nodes: entry `(n, 0)` is `(∑ k, H n k * Wo k 0) + bo 0`. -/
def readout (H : (⟨2, ![40000, 128]⟩ : Shape).Idx → EReal) (Wo : (⟨2, ![128, 1]⟩ : Shape).Idx → EReal)
    (bo : (⟨1, ![1]⟩ : Shape).Idx → EReal) : (⟨2, ![40000, 1]⟩ : Shape).Idx → EReal :=
  fun j => (∑ k : Fin 128, H (ix2 (j 0) k) * Wo (ix2 k (j 1))) + bo (ix1 (j 1))

theorem layer_apply (A X : (⟨2, ![40000, 128]⟩ : Shape).Idx → EReal) (Wl : (⟨2, ![128, 128]⟩ : Shape).Idx → EReal)
    (b : (⟨1, ![128]⟩ : Shape).Idx → EReal) (Wr : (⟨2, ![128, 128]⟩ : Shape).Idx → EReal) (n : Fin 40000) (f : Fin 128) :
    layer A X Wl b Wr (ix2 n f) =
      max (((∑ k : Fin 128, A (ix2 n k) * Wl (ix2 k f)) + ∑ k : Fin 128, X (ix2 n k) * Wr (ix2 k f)) + b (ix1 f)) zeroW := rfl

theorem readout_apply (H : (⟨2, ![40000, 128]⟩ : Shape).Idx → EReal) (Wo : (⟨2, ![128, 1]⟩ : Shape).Idx → EReal)
    (bo : (⟨1, ![1]⟩ : Shape).Idx → EReal) (n : Fin 40000) (f : Fin 1) :
    readout H Wo bo (ix2 n f) = (∑ k : Fin 128, H (ix2 n k) * Wo (ix2 k f)) + bo (ix1 f) := rfl

/-- Adding the bias before or after the second product is the same sum: `+` on the extended reals is commutative
    and associative (no finiteness is needed for that). -/
theorem add_bias_comm (s b t : EReal) : (s + b) + t = (s + t) + b := add_right_comm s b t

/-- `1.0` is positive. -/
theorem oneW_pos : (0 : EReal) < oneW := by
  rw [show oneW = 1 from Cert.LibBatchNorm.ofBits_f32_one]; exact zero_lt_one

/-- The divisor of a mean is never zero: it is at least `1`. -/
theorem max_one_ne_zero (d : EReal) : max d oneW ≠ 0 :=
  ne_of_gt (lt_max_of_lt_right oneW_pos)

/-- Multiplying by the reciprocal of `max d 1` is dividing by it, for every extended real `x` and `d`:
    the divisor is not `0`, where `Ideal.div x y` is `x * y⁻¹`, and `1 * y⁻¹ = y⁻¹`. -/
theorem mul_recip_eq_div (x d : EReal) :
    x * Ideal.div oneW (max d oneW) = Ideal.div x (max d oneW) := by
  have h := max_one_ne_zero d
  rw [Ideal.div, if_neg h, Ideal.div, if_neg h, show oneW = 1 from Cert.LibBatchNorm.ofBits_f32_one, one_mul]

end Cert.Sage

end
-- ==== Proof.HostMeans.lean ====
/-
  The host operations before the first layer's region, read back as functions of the argument arrays.

  From the edge list the program computes, once, each node's in-degree `deg` (a scatter-add of ones over the edge
  targets), the reciprocal `1 / max deg 1`, and the first neighbourhood means: the sum over incoming edges of the source
  node's feature row (a gather by source, a scatter-add by target) TIMES that reciprocal, broadcast along the feature
  axis. The reference DIVIDES the same sum by `max deg 1` broadcast the same way. Entry by entry these are
  `x * (1 / d)` and `x / d` with `d = max deg 1 ≥ 1`: equal on all of the extended reals (`Cert.Sage.mul_recip_eq_div`).
  The edge bookkeeping (the two rows of the edge list, the wrap of negative sources, the index columns) is the same
  sequence of operations in both programs.
-/
import proofs.«133150_j34600256537252_1_alg».proof.Proof.Gen.KernelIdeal.Frame
import proofs.«133150_j34600256537252_1_alg».proof.Proof.Gen.ReferenceIdeal.Read
import proofs.«133150_j34600256537252_1_alg».proof.Proof.Spec
import Idealize.ShloMosaic.Lib.StableHlo.Run
import Idealize.ShloMosaic.PureOps.Ideal

set_option maxRecDepth 16384

noncomputable section

namespace Cert.KernelIdeal.HostMeans

open Idealize.ShloMosaic Idealize.ShloMosaic.TcCoe Idealize.SL.Sem Idealize.ShloMosaic.StableHlo
open Cert.KernelIdeal Cert.KernelIdeal.Gen

/-- A sum over incoming edges `M` times the broadcast reciprocal of `max D 1` is `M` divided by the broadcast
    `max D 1`: at every entry `(n, f)` both broadcasts read node `n`'s value, and there
    `x * (1 / max d 1) = x / max d 1`. -/
theorem mean_eq (M : FVec Ideal S40000x128 .f32) (D : FVec Ideal S40000 .f32) :
    mulf M (broadcastInDim S40000x128 ![0, 1] bcast_S40000x1_S40000x128_0_1 (broadcastInDim S40000x1 ![0] bcast_S40000_S40000x1_0 (Host.divf (broadcastInDim S40000 ![] bcast_S_S40000 (constant (F := Ideal) S_ .f32 0x3F800000#32)) (maximumf D (broadcastInDim S40000 ![] bcast_S_S40000 (constant (F := Ideal) S_ .f32 0x3F800000#32))))))
      = Host.divf M (broadcastInDim S40000x128 ![0, 1] bcast_S40000x1_S40000x128_0_1 (broadcastInDim S40000x1 ![0] bcast_S40000_S40000x1_0 (maximumf D (broadcastInDim S40000 ![] bcast_S_S40000 (constant (F := Ideal) S_ .f32 0x3F800000#32))))) := by
  funext i
  unfold broadcastInDim
  exact Cert.Sage.mul_recip_eq_div (M i) (D _)

variable (m : (ℓ : Loc nD τ sig) → Buf (Elt Ideal) ℓ) (ρ : Dev nD → PrngReg)

/-! ## The arguments, as the first region finds them -/

/-- No host operation writes argument 0: the first region finds it as launched. -/
theorem entry_arg0 (c : Dev nD) : V1 m ρ c main_arg0 = m ((c : Thread nD τ).loc main_arg0) := by
  show StableHlo.after hostOps0 (W0 m ρ c) (Proc.devRef .tc main_arg0) = _
  after_results_simp
/-- No host operation writes argument 2: the first region finds it as launched. -/
theorem entry_arg2 (c : Dev nD) : V1 m ρ c main_arg2 = m ((c : Thread nD τ).loc main_arg2) := by
  show StableHlo.after hostOps0 (W0 m ρ c) (Proc.devRef .tc main_arg2) = _
  after_results_simp
/-- No host operation writes argument 3: the first region finds it as launched. -/
theorem entry_arg3 (c : Dev nD) : V1 m ρ c main_arg3 = m ((c : Thread nD τ).loc main_arg3) := by
  show StableHlo.after hostOps0 (W0 m ρ c) (Proc.devRef .tc main_arg3) = _
  after_results_simp
/-- No host operation writes argument 4: the first region finds it as launched. -/
theorem entry_arg4 (c : Dev nD) : V1 m ρ c main_arg4 = m ((c : Thread nD τ).loc main_arg4) := by
  show StableHlo.after hostOps0 (W0 m ρ c) (Proc.devRef .tc main_arg4) = _
  after_results_simp

/-! ## The edge list's two rows and the reciprocal in-degrees -/

/-- The edge sources (row 0 of the edge list). -/
theorem src_eq (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

/-- The edge targets (row 1 of the edge list). -/
theorem dst_eq (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The reciprocal `1 / max deg 1` of the in-degrees, the in-degrees being the reference's (the same scatter-add of ones
    over the edge targets, which the reference computes once per layer). -/
theorem recip_eq (c : Dev nD) : W1 m ρ c (Proc.devRef .tc main_v11)
    = Host.divf (broadcastInDim S40000 ![] bcast_S_S40000 (constant (F := Ideal) S_ .f32 0x3F800000#32)) (maximumf (Cert.ReferenceIdeal.Read.val_main_v43 (F := Ideal) (m ((c : Thread nD τ).loc main_arg1))) (broadcastInDim S40000 ![] bcast_S_S40000 (constant (F := Ideal) S_ .f32 0x3F800000#32))) := by
  show StableHlo.after hostOps0 (W0 m ρ c) (Proc.devRef .tc main_v11) = _
  after_results_simp
  rfl

/-! ## The first neighbourhood means -/

/-- The first region's means are the reference's: the same sum over incoming edges of the source rows of `x`, times the
    reciprocal of `max deg 1` here and divided by `max deg 1` there (`mean_eq`). -/
theorem means1_eq (c : Dev nD) : V1 m ρ c main_v24 = Cert.ReferenceIdeal.Read.val_main_v22 (F := Ideal) (m ((c : Thread nD τ).loc main_arg0)) (m ((c : Thread nD τ).loc main_arg1)) := by
  show StableHlo.after hostOps0 (W0 m ρ c) (Proc.devRef .tc main_v24) = _
  after_results_simp
  refine (mean_eq _ _).trans ?_
  rfl

end Cert.KernelIdeal.HostMeans

end
-- ==== Proof.Region0.lean ====
/-
  The first layer's output array, as one function of the arrays the region finds.

  The region sweeps ten grid points. At point `t` it holds rows `4000 t … 4000 t + 3999` of the neighbourhood means and of
  the node features (two blocks of 4000 rows), the two 128 × 128 weight matrices and the bias whole, and writes back rows
  `4000 t … 4000 t + 3999` of the result. The body computes, entrywise, the larger of `0` and
  `(∑ k, a p k * wl k q) + (∑ k, x p k * wr k q) + b q`: on the extended reals the narrowing casts and the same-shape
  reshape are the identity, and a product accumulated into the zero splat is the plain sum over the contracted axis. So
  point `t` writes block `t` of `Cert.Sage.layer` of the whole arrays; the ten blocks tile the 40000 rows (row `r` is in
  block `r / 4000`), hence the array ends holding `Cert.Sage.layer` of the arrays at region entry — whatever those are.
-/
import proofs.«133150_j34600256537252_1_alg».proof.Proof.Gen.KernelIdeal.Frame
import proofs.«133150_j34600256537252_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Cert.KernelIdeal Cert.KernelIdeal.Gen
open scoped BigOperators

/-! ## The body's result at an index -/

/-- The left operand's row coordinate at output index `i` is `i`'s row (axis 0 is the left operand's free axis). -/
theorem dot_lhs_row (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The right operand's column coordinate at output index `i` is `i`'s column (axis 1 is the right operand's free axis). -/
theorem dot_rhs_col (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- One product of the body, read at an output index: row `p` of the left operand against column `q` of the right,
    summed over the one contracted axis. -/
theorem dot_apply (x : FVec Ideal S4000x128 .bf16) (w : FVec Ideal S128x128 .bf16) (p : Fin 4000) (q : Fin 128) :
    matmul (F := Ideal) dot_S4000x128_S128x128_S4000x128_1_0_0_1_n_n none x w (constant (F := Ideal) S4000x128 .f32 0x00000000#32) (ix2 p q)
      = ∑ k : Fin 128, x (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact dot_lhs_row _ _
    | ⟨1, _⟩ => exact (dot_S4000x128_S128x128_S4000x128_1_0_0_1_n_n.lhsIdx_val_of_single rfl (ix2 p q) _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (dot_S4000x128_S128x128_S4000x128_1_0_0_1_n_n.rhsIdx_val_of_single rfl (ix2 p q) _).trans hk
    | ⟨1, _⟩ => exact dot_rhs_col _ _)
  rw [el, er]

/-- The bias vector, reshaped to one row and repeated over the rows, read at an index: the bias at the column. -/
theorem bias_apply (b : Vec Ideal S128 .f32) (p : Fin 4000) (q : Fin 128) :
    broadcastTo S4000x128 (shapeCast S1x128 b shapeCasts_S128_S1x128) broadcasts_S1x128_S4000x128 (ix2 p q) = b (ix1 q) :=
  (broadcastTo_1b_ab_apply _ broadcasts_S1x128_S4000x128 p q).trans (shapeCast_a_1a_apply b shapeCasts_S128_S1x128 0 q)

/-- THE BODY'S RESULT AT AN INDEX: entry `(p, q)` of what the body stores is the layer's entry built from row `p` of
    the two row blocks, column `q` of the two weight matrices and the bias at `q`. The narrowing casts and the
    same-shape reshape are the identity on extended reals; each product into the zero accumulator is the plain sum. -/
theorem pay_apply (x0 x1 : Vec Ideal S4000x128 .f32) (wl wr : Vec Ideal S128x128 .f32) (b : Vec Ideal S128 .f32)
    (p : Fin 4000) (q : Fin 128) :
    k0_pay1 (F := Ideal) x0 x1 wl wr b (ix2 p q)
      = Cert.Sage.layerAt (fun k => x0 (ix2 p k)) (fun k => x1 (ix2 p k)) (fun k => wl (ix2 k q)) (fun k => wr (ix2 k q)) (b (ix1 q)) := by
  unfold k0_pay1 Cert.Sage.layerAt
  refine congrArg₂ max (congrArg₂ (· + ·) (congrArg₂ (· + ·) ?_ ?_) ?_) rfl
  · refine (dot_apply _ _ p q).trans ?_
    rw [shapeCast_self]; rfl
  · exact dot_apply _ _ p q
  · exact bias_apply b p q

/-- ONE ENTRY, FROM BLOCKS TO ARRAYS: if row `p` of the two row blocks is row `n` of the arrays `A` and `X`, and column
    `q` of the weight blocks and the bias block are those of `Wl`, `Wr`, `B`, then entry `(p, q)` of the body's result
    is entry `(n, q)` of the layer of the whole arrays. -/
theorem point_eq (A X : S40000x128.Idx → EReal) (Wl : S128x128.Idx → EReal) (B : S128.Idx → EReal) (Wr : S128x128.Idx → EReal)
    (x0 x1 : Vec Ideal S4000x128 .f32) (wl wr : Vec Ideal S128x128 .f32) (b : Vec Ideal S128 .f32)
    (p : Fin 4000) (q : Fin 128) (n : Fin 40000)
    (h0 : ∀ k : Fin 128, x0 (ix2 p k) = A (ix2 n k)) (h1 : ∀ k : Fin 128, x1 (ix2 p k) = X (ix2 n k))
    (hl : ∀ k : Fin 128, wl (ix2 k q) = Wl (ix2 k q)) (hr : ∀ k : Fin 128, wr (ix2 k q) = Wr (ix2 k q))
    (hb : b (ix1 q) = B (ix1 q)) :
    k0_pay1 (F := Ideal) x0 x1 wl wr b (ix2 p q) = Cert.Sage.layer A X Wl B Wr (ix2 n q) := by
  rw [pay_apply, Cert.Sage.layer_apply]
  unfold Cert.Sage.layerAt
  simp only [h0, h1, hl, hr, hb]

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the ten grid points: the two row windows and the output window are at row
    block `t`, column block 0; the weight and bias windows are at block 0 at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the layer of the arrays as the region finds them. -/
theorem flushed_eq (c : Dev nD) (t : Fin cfg0.N) :
    (dat0 (F := Ideal) V c).flushed 5 t = ((cfg0.win 5).blk t).view.read (Elt Ideal)
      (Cert.Sage.layer (V c main_v24) (V c main_arg0) (V c main_arg2) (V c main_arg3) (V c main_arg4)) := by
  show (cfg0.win 5).cut (grid0.coords t) ((dat0 (F := Ideal) V c).after 5 t) = _
  rw [after0_5]
  unfold out0_5
  rw [View.canon_unit_zero hz2]
  simp only [View.ld_unit_zero (S := S4000x128) hz2, View.ld_unit_zero (S := S128x128) hz2, View.ld_unit_zero (S := S128) hz1]
  funext j
  obtain ⟨e00, e01, e10, e11, e20, e21, e30, e40, e41, e50, e51⟩ := idx_facts t
  have ht : t.val < 10 := lt_of_lt_of_eq t.isLt N_0
  have hj0 : (j 0).val < 4000 := (j 0).isLt
  have hj1 : (j 1).val < 128 := (j 1).isLt
  have hjpq : (j : S4000x128.Idx) = ix2 (⟨(j 0).val, hj0⟩ : Fin 4000) (⟨(j 1).val, hj1⟩ : Fin 128) :=
    funext fun a => by match a with | ⟨0, _⟩ => rfl | ⟨1, _⟩ => rfl
  have hemb : ((cfg0.win 5).blk t).view.emb j
      = ix2 (⟨t.val * 4000 + (j 0).val, by omega⟩ : Fin 40000) (⟨(j 1).val, hj1⟩ : Fin 128) := by
    funext a; apply Fin.ext
    match a with
    | ⟨0, _⟩ => show win0_5.index t (0 : Fin 2) * 4000 + 1 * (j 0).val = t.val * 4000 + (j 0).val; rw [e50]; omega
    | ⟨1, _⟩ => show win0_5.index t (1 : Fin 2) * 128 + 1 * (j 1).val = (j 1).val; rw [e51]; omega
  show k0_pay1 (F := Ideal) (iblk0 V c 0 t) (iblk0 V c 1 t) (iblk0 V c 2 t) (iblk0 V c 4 t) (iblk0 V c 3 t) (j : S4000x128.Idx)
    = Cert.Sage.layer (V c main_v24) (V c main_arg0) (V c main_arg2) (V c main_arg3) (V c main_arg4) (((cfg0.win 5).blk t).view.emb j)
  refine ((congrArg (k0_pay1 (F := Ideal) (iblk0 V c 0 t) (iblk0 V c 1 t) (iblk0 V c 2 t) (iblk0 V c 4 t) (iblk0 V c 3 t)) hjpq).trans ?_).trans
    (congrArg (Cert.Sage.layer (V c main_v24) (V c main_arg0) (V c main_arg2) (V c main_arg3) (V c main_arg4)) hemb.symm)
  refine point_eq (V c main_v24) (V c main_arg0) (V c main_arg2) (V c main_arg3) (V c main_arg4)
    (iblk0 V c 0 t) (iblk0 V c 1 t) (iblk0 V c 2 t) (iblk0 V c 4 t) (iblk0 V c 3 t)
    ⟨(j 0).val, hj0⟩ ⟨(j 1).val, hj1⟩ ⟨t.val * 4000 + (j 0).val, by omega⟩ ?_ ?_ ?_ ?_ ?_
  · -- row `p` of the first row block is row `4000 t + p` of the first array
    intro k
    show V c main_v24 (((cfg0.win 0).blk t).view.emb (ix2 (⟨(j 0).val, hj0⟩ : Fin 4000) k)) = V c main_v24 _
    refine congrArg (V c main_v24) (funext fun a => Fin.ext ?_)
    match a with
    | ⟨0, _⟩ => show win0_0.index t (0 : Fin 2) * 4000 + 1 * (j 0).val = t.val * 4000 + (j 0).val; rw [e00]; omega
    | ⟨1, _⟩ => show win0_0.index t (1 : Fin 2) * 128 + 1 * k.val = k.val; rw [e01]; omega
  · -- and of the second row block, of the second array
    intro k
    show V c main_arg0 (((cfg0.win 1).blk t).view.emb (ix2 (⟨(j 0).val, hj0⟩ : Fin 4000) k)) = V c main_arg0 _
    refine congrArg (V c main_arg0) (funext fun a => Fin.ext ?_)
    match a with
    | ⟨0, _⟩ => show win0_1.index t (0 : Fin 2) * 4000 + 1 * (j 0).val = t.val * 4000 + (j 0).val; rw [e10]; omega
    | ⟨1, _⟩ => show win0_1.index t (1 : Fin 2) * 128 + 1 * k.val = k.val; rw [e11]; omega
  · -- the first weight window is the whole matrix at every point
    intro k
    show V c main_arg2 (((cfg0.win 2).blk t).view.emb (ix2 k (⟨(j 1).val, hj1⟩ : Fin 128))) = V c main_arg2 _
    refine congrArg (V c main_arg2) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = (j 1).val; rw [e21]; omega
  · -- so is the second
    intro k
    show V c main_arg4 (((cfg0.win 4).blk t).view.emb (ix2 k (⟨(j 1).val, hj1⟩ : Fin 128))) = V c main_arg4 _
    refine congrArg (V c main_arg4) (funext fun a => Fin.ext ?_)
    match a with
    | ⟨0, _⟩ => show win0_4.index t (0 : Fin 2) * 128 + 1 * k.val = k.val; rw [e40]; omega
    | ⟨1, _⟩ => show win0_4.index t (1 : Fin 2) * 128 + 1 * (j 1).val = (j 1).val; rw [e41]; omega
  · -- and the bias window the whole bias
    show V c main_arg3 (((cfg0.win 3).blk t).view.emb (ix1 (⟨(j 1).val, hj1⟩ : Fin 128))) = V c main_arg3 _
    refine congrArg (V c main_arg3) (funext fun a => Fin.ext ?_)
    match a with
    | ⟨0, _⟩ => show win0_3.index t (0 : Fin 1) * 128 + 1 * (j 1).val = (j 1).val; rw [e30]; omega

/-- An index of the array is in point `t`'s block iff each coordinate is in the block's range on its axis. -/
theorem mem_blk (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- THE BLOCKS COVER THE ARRAY: row `r` lies in the block of point `r / 4000`, and every point writes its block back. -/
theorem cover (i : S40000x128.Idx) :
    ∃ t : Fin cfg0.N, (cfg0.win 5).flush t = true ∧ i ∈ ((cfg0.win 5).blk t).view.set := by
  have hi0 : (i 0).val < 40000 := (i 0).isLt
  have hi1 : (i 1).val < 128 := (i 1).isLt
  obtain ⟨t, ht⟩ : ∃ t : Fin cfg0.N, t.val = (i 0).val / 4000 :=
    ⟨⟨(i 0).val / 4000, by rw [show cfg0.N = 10 from N_0]; omega⟩, rfl⟩
  obtain ⟨-, -, -, -, -, -, -, -, -, e50, e51⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e50, ht]; omega
  | ⟨1, _⟩ => show win0_5.index t (1 : Fin 2) * 128 ≤ (i 1).val ∧ (i 1).val < win0_5.index t (1 : Fin 2) * 128 + 128; rw [e51]; omega

/-- THE ARRAY AFTER THE REGION: the layer of the arrays as the region finds them, whatever those are. -/
theorem arr (c : Dev nD) : (dat0 (F := Ideal) V c).arrAt 5 cfg0.N
    = Cert.Sage.layer (V c main_v24) (V c main_arg0) (V c main_arg2) (V c main_arg3) (V c main_arg4) :=
  (dat0 (F := Ideal) V c).arrAt_eq_of_cover 5
    (Cert.Sage.layer (V c main_v24) (V c main_arg0) (V c main_arg2) (V c main_arg3) (V c main_arg4))
    (fun t _ => flushed_eq V c t) cover

end Cert.KernelIdeal.Region0

end
-- ==== Proof.Region1.lean ====
/-
  The second layer's output array, as one function of the arrays the region finds.

  The same sweep as the first layer's, over other arrays: at point `t` the region holds rows `4000 t … 4000 t + 3999` of
  the second neighbourhood means and of the first layer's output, the second layer's two weight matrices and bias whole,
  and writes back the same rows of the result. The body is the first layer's with one more same-shape reshape, the
  identity on the values. So point `t` writes block `t` of `Cert.Sage.layer` of the whole arrays, the ten blocks tile
  the 40000 rows, and the array ends holding `Cert.Sage.layer` of the arrays at region entry — whatever those are.
  The product read at an index, the bias read at an index and the zero offsets are the first layer's lemmas.
-/
import proofs.«133150_j34600256537252_1_alg».proof.Proof.Gen.KernelIdeal.Frame
import proofs.«133150_j34600256537252_1_alg».proof.Proof.Spec
import proofs.«133150_j34600256537252_1_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Cert.KernelIdeal Cert.KernelIdeal.Gen
open Cert.KernelIdeal.Region0 (dot_apply bias_apply hz2 hz1)
open scoped BigOperators

/-! ## The body's result at an index -/

/-- THE BODY'S RESULT AT AN INDEX: entry `(p, q)` of what the body stores is the layer's entry built from row `p` of
    the two row blocks, column `q` of the two weight matrices and the bias at `q`. The narrowing casts and the two
    same-shape reshapes are the identity on extended reals; each product into the zero accumulator is the plain sum. -/
theorem pay_apply (x0 x1 : Vec Ideal S4000x128 .f32) (wl wr : Vec Ideal S128x128 .f32) (b : Vec Ideal S128 .f32)
    (p : Fin 4000) (q : Fin 128) :
    k1_pay1 (F := Ideal) x0 x1 wl wr b (ix2 p q)
      = Cert.Sage.layerAt (fun k => x0 (ix2 p k)) (fun k => x1 (ix2 p k)) (fun k => wl (ix2 k q)) (fun k => wr (ix2 k q)) (b (ix1 q)) := by
  unfold k1_pay1 Cert.Sage.layerAt
  refine congrArg₂ max (congrArg₂ (· + ·) (congrArg₂ (· + ·) ?_ ?_) ?_) rfl
  · refine (dot_apply _ _ p q).trans ?_
    rw [shapeCast_self]; rfl
  · refine (dot_apply _ _ p q).trans ?_
    rw [shapeCast_self]; rfl
  · exact bias_apply b p q

/-- ONE ENTRY, FROM BLOCKS TO ARRAYS: if row `p` of the two row blocks is row `n` of the arrays `A` and `X`, and column
    `q` of the weight blocks and the bias block are those of `Wl`, `Wr`, `B`, then entry `(p, q)` of the body's result
    is entry `(n, q)` of the layer of the whole arrays. -/
theorem point_eq (A X : S40000x128.Idx → EReal) (Wl : S128x128.Idx → EReal) (B : S128.Idx → EReal) (Wr : S128x128.Idx → EReal)
    (x0 x1 : Vec Ideal S4000x128 .f32) (wl wr : Vec Ideal S128x128 .f32) (b : Vec Ideal S128 .f32)
    (p : Fin 4000) (q : Fin 128) (n : Fin 40000)
    (h0 : ∀ k : Fin 128, x0 (ix2 p k) = A (ix2 n k)) (h1 : ∀ k : Fin 128, x1 (ix2 p k) = X (ix2 n k))
    (hl : ∀ k : Fin 128, wl (ix2 k q) = Wl (ix2 k q)) (hr : ∀ k : Fin 128, wr (ix2 k q) = Wr (ix2 k q))
    (hb : b (ix1 q) = B (ix1 q)) :
    k1_pay1 (F := Ideal) x0 x1 wl wr b (ix2 p q) = Cert.Sage.layer A X Wl B Wr (ix2 n q) := by
  rw [pay_apply, Cert.Sage.layer_apply]
  unfold Cert.Sage.layerAt
  simp only [h0, h1, hl, hr, hb]

/-! ## From blocks to the array -/

variable (V : (c : Dev nD) → (b : Ref sig .tc) → Buf (Elt Ideal) ((c : Thread nD τ).loc b))

/-- The printed index maps, decided once over the ten grid points: the two row windows and the output window are at row
    block `t`, column block 0; the weight and bias windows are at block 0 at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the layer of the arrays as the region finds them. -/
theorem flushed_eq (c : Dev nD) (t : Fin cfg1.N) :
    (dat1 (F := Ideal) V c).flushed 5 t = ((cfg1.win 5).blk t).view.read (Elt Ideal)
      (Cert.Sage.layer (V c main_v38) (V c main_v25) (V c main_arg5) (V c main_arg6) (V c main_arg7)) := by
  show (cfg1.win 5).cut (grid1.coords t) ((dat1 (F := Ideal) V c).after 5 t) = _
  rw [after1_5]
  unfold out1_5
  rw [View.canon_unit_zero hz2]
  simp only [View.ld_unit_zero (S := S4000x128) hz2, View.ld_unit_zero (S := S128x128) hz2, View.ld_unit_zero (S := S128) hz1]
  funext j
  obtain ⟨e00, e01, e10, e11, e20, e21, e30, e40, e41, e50, e51⟩ := idx_facts t
  have ht : t.val < 10 := lt_of_lt_of_eq t.isLt N_1
  have hj0 : (j 0).val < 4000 := (j 0).isLt
  have hj1 : (j 1).val < 128 := (j 1).isLt
  have hjpq : (j : S4000x128.Idx) = ix2 (⟨(j 0).val, hj0⟩ : Fin 4000) (⟨(j 1).val, hj1⟩ : Fin 128) :=
    funext fun a => by match a with | ⟨0, _⟩ => rfl | ⟨1, _⟩ => rfl
  have hemb : ((cfg1.win 5).blk t).view.emb j
      = ix2 (⟨t.val * 4000 + (j 0).val, by omega⟩ : Fin 40000) (⟨(j 1).val, hj1⟩ : Fin 128) := by
    funext a; apply Fin.ext
    match a with
    | ⟨0, _⟩ => show win1_5.index t (0 : Fin 2) * 4000 + 1 * (j 0).val = t.val * 4000 + (j 0).val; rw [e50]; omega
    | ⟨1, _⟩ => show win1_5.index t (1 : Fin 2) * 128 + 1 * (j 1).val = (j 1).val; rw [e51]; omega
  show k1_pay1 (F := Ideal) (iblk1 V c 0 t) (iblk1 V c 1 t) (iblk1 V c 2 t) (iblk1 V c 4 t) (iblk1 V c 3 t) (j : S4000x128.Idx)
    = Cert.Sage.layer (V c main_v38) (V c main_v25) (V c main_arg5) (V c main_arg6) (V c main_arg7) (((cfg1.win 5).blk t).view.emb j)
  refine ((congrArg (k1_pay1 (F := Ideal) (iblk1 V c 0 t) (iblk1 V c 1 t) (iblk1 V c 2 t) (iblk1 V c 4 t) (iblk1 V c 3 t)) hjpq).trans ?_).trans
    (congrArg (Cert.Sage.layer (V c main_v38) (V c main_v25) (V c main_arg5) (V c main_arg6) (V c main_arg7)) hemb.symm)
  refine point_eq (V c main_v38) (V c main_v25) (V c main_arg5) (V c main_arg6) (V c main_arg7)
    (iblk1 V c 0 t) (iblk1 V c 1 t) (iblk1 V c 2 t) (iblk1 V c 4 t) (iblk1 V c 3 t)
    ⟨(j 0).val, hj0⟩ ⟨(j 1).val, hj1⟩ ⟨t.val * 4000 + (j 0).val, by omega⟩ ?_ ?_ ?_ ?_ ?_
  · -- row `p` of the first row block is row `4000 t + p` of the first array
    intro k
    show V c main_v38 (((cfg1.win 0).blk t).view.emb (ix2 (⟨(j 0).val, hj0⟩ : Fin 4000) k)) = V c main_v38 _
    refine congrArg (V c main_v38) (funext fun a => Fin.ext ?_)
    match a with
    | ⟨0, _⟩ => show win1_0.index t (0 : Fin 2) * 4000 + 1 * (j 0).val = t.val * 4000 + (j 0).val; rw [e00]; omega
    | ⟨1, _⟩ => show win1_0.index t (1 : Fin 2) * 128 + 1 * k.val = k.val; rw [e01]; omega
  · -- and of the second row block, of the second array
    intro k
    show V c main_v25 (((cfg1.win 1).blk t).view.emb (ix2 (⟨(j 0).val, hj0⟩ : Fin 4000) k)) = V c main_v25 _
    refine congrArg (V c main_v25) (funext fun a => Fin.ext ?_)
    match a with
    | ⟨0, _⟩ => show win1_1.index t (0 : Fin 2) * 4000 + 1 * (j 0).val = t.val * 4000 + (j 0).val; rw [e10]; omega
    | ⟨1, _⟩ => show win1_1.index t (1 : Fin 2) * 128 + 1 * k.val = k.val; rw [e11]; omega
  · -- the first weight window is the whole matrix at every point
    intro k
    show V c main_arg5 (((cfg1.win 2).blk t).view.emb (ix2 k (⟨(j 1).val, hj1⟩ : Fin 128))) = V c main_arg5 _
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = (j 1).val; rw [e21]; omega
  · -- so is the second
    intro k
    show V c main_arg7 (((cfg1.win 4).blk t).view.emb (ix2 k (⟨(j 1).val, hj1⟩ : Fin 128))) = V c main_arg7 _
    refine congrArg (V c main_arg7) (funext fun a => Fin.ext ?_)
    match a with
    | ⟨0, _⟩ => show win1_4.index t (0 : Fin 2) * 128 + 1 * k.val = k.val; rw [e40]; omega
    | ⟨1, _⟩ => show win1_4.index t (1 : Fin 2) * 128 + 1 * (j 1).val = (j 1).val; rw [e41]; omega
  · -- and the bias window the whole bias
    show V c main_arg6 (((cfg1.win 3).blk t).view.emb (ix1 (⟨(j 1).val, hj1⟩ : Fin 128))) = V c main_arg6 _
    refine congrArg (V c main_arg6) (funext fun a => Fin.ext ?_)
    match a with
    | ⟨0, _⟩ => show win1_3.index t (0 : Fin 1) * 128 + 1 * (j 1).val = (j 1).val; rw [e30]; omega

/-- An index of the array is in point `t`'s block iff each coordinate is in the block's range on its axis. -/
theorem mem_blk (t : Fin cfg1.N) (i : S40000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v39).slice (win1_5.rect t)).set ↔ _
  rw [View.set_slice_whole, Rect.mem_set_unit]
  exact Iff.rfl

/-- THE BLOCKS COVER THE ARRAY: row `r` lies in the block of point `r / 4000`, and every point writes its block back. -/
theorem cover (i : S40000x128.Idx) :
    ∃ t : Fin cfg1.N, (cfg1.win 5).flush t = true ∧ i ∈ ((cfg1.win 5).blk t).view.set := by
  have hi0 : (i 0).val < 40000 := (i 0).isLt
  have hi1 : (i 1).val < 128 := (i 1).isLt
  obtain ⟨t, ht⟩ : ∃ t : Fin cfg1.N, t.val = (i 0).val / 4000 :=
    ⟨⟨(i 0).val / 4000, by rw [show cfg1.N = 10 from N_1]; omega⟩, rfl⟩
  obtain ⟨-, -, -, -, -, -, -, -, -, e50, e51⟩ := idx_facts t
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; rw [e50, ht]; omega
  | ⟨1, _⟩ => show win1_5.index t (1 : Fin 2) * 128 ≤ (i 1).val ∧ (i 1).val < win1_5.index t (1 : Fin 2) * 128 + 128; rw [e51]; omega

/-- THE ARRAY AFTER THE REGION: the layer of the arrays as the region finds them, whatever those are. -/
theorem arr (c : Dev nD) : (dat1 (F := Ideal) V c).arrAt 5 cfg1.N
    = Cert.Sage.layer (V c main_v38) (V c main_v25) (V c main_arg5) (V c main_arg6) (V c main_arg7) :=
  (dat1 (F := Ideal) V c).arrAt_eq_of_cover 5
    (Cert.Sage.layer (V c main_v38) (V c main_v25) (V c main_arg5) (V c main_arg6) (V c main_arg7))
    (fun t _ => flushed_eq V c t) cover

end Cert.KernelIdeal.Region1

end
-- ==== Proof.Region2.lean ====
/-
  The read-out region as one function of whole arrays.

  The region walks the 40000 nodes in ten blocks of 4000 rows. At each block it multiplies the block of hidden
  features (4000 × 128) by the weight column (128 × 1), adds the one-entry bias to every row, and writes the
  4000 × 1 result to the same rows of the output. On the extended reals the change of float format before the
  product is the identity and the product accumulates into the zero block, so entry `(p, 0)` of a block's result is
  `(∑ k, h p k * w k 0) + b 0`. Row `p` of block `t` is node `4000 * t + p`; the weight column and the bias are
  the same whole arrays at every block. Hence each block written back is the matching block of
  `readout H Wo bo`, `readout H Wo bo (n, 0) = (∑ k, H n k * Wo k 0) + bo 0`, and since every row `r` lies in block
  `r / 4000` the ten blocks fill the output: the array ends as `readout H Wo bo`, for whatever contents `H`,
  `Wo`, `bo` the region finds on entry.
-/
import proofs.«133150_j34600256537252_1_alg».proof.Proof.Gen.KernelIdeal.Frame
import proofs.«133150_j34600256537252_1_alg».proof.Proof.Spec
import Idealize.ShloMosaic.Lib.Pipeline.Value
import Idealize.ShloMosaic.Lib.ValueIdx
import Idealize.ShloMosaic.PureOps.Ideal.Laws

noncomputable section

namespace Cert.KernelIdeal.Region2
open Idealize.ShloMosaic Idealize.ShloMosaic.TcCoe Idealize.SL.Sem
open Cert.KernelIdeal Cert.KernelIdeal.Gen
open Idealize.ShloMosaic.ValueIdx
open scoped BigOperators

variable (V : (c : Dev nD) → (b : Ref sig .tc) → Buf (Elt Ideal) ((c : Thread nD τ).loc b))

/-! ## One entry of a block's result -/

/-- The product's dimension numbers: axis 1 of the 4000 × 128 block is contracted against axis 0 of the 128 × 1
    column; there is no batch axis. -/
abbrev readoutDot : DotDims S4000x128 S128x1 S4000x1 := dot_S4000x128_S128x1_S4000x1_1_0_0_1_n_n

/-- The left operand is read in the output entry's row … -/
theorem lhsRow (i : S4000x1.Idx) (q : readoutDot.contr.Idx) : (readoutDot.lhsIdx i q 0).val = (i 0).val := by
  unfold DotDims.lhsIdx
  rw [dif_neg (show ¬(0 : Fin S4000x128.rank) ∈ readoutDot.lhsBatch by decide),
    dif_pos (show (0 : Fin S4000x128.rank) ∈ readoutDot.lhsNonContracting by decide)]
  rfl
/-- … at the contraction index; -/
theorem lhsCol (i : S4000x1.Idx) (q : readoutDot.contr.Idx) : (readoutDot.lhsIdx i q 1).val = (q ⟨0, by decide⟩).val :=
  readoutDot.lhsIdx_val_of_single rfl i q
/-- the right operand is read at the contraction index … -/
theorem rhsRow (i : S4000x1.Idx) (q : readoutDot.contr.Idx) : (readoutDot.rhsIdx i q 0).val = (q ⟨0, by decide⟩).val :=
  readoutDot.rhsIdx_val_of_single rfl i q
/-- … in the output entry's column. -/
theorem rhsCol (i : S4000x1.Idx) (q : readoutDot.contr.Idx) : (readoutDot.rhsIdx i q 1).val = (i 1).val := by
  unfold DotDims.rhsIdx
  rw [dif_neg (show ¬(1 : Fin S128x1.rank) ∈ readoutDot.rhsBatch by decide),
    dif_pos (show (1 : Fin S128x1.rank) ∈ readoutDot.rhsNonContracting by decide)]
  rfl

/-- The block product into the zero block, at entry `(p, q)`: row `p` of the left block against column `q` of the
    right one, the sum re-indexed from the one-axis contraction index to `k : Fin 128`. -/
theorem product_at (l : FVec Ideal S4000x128 .bf16) (r : FVec Ideal S128x1 .bf16) (p : Fin 4000) (q : Fin 1) :
    matmul readoutDot none l r (constant (F := Ideal) S4000x1 .f32 0x00000000#32) (ix2 p q)
      = ∑ k : Fin 128, l (ix2 p k) * r (ix2 k q) := by
  simp only [matmul]
  rw [Ideal.matmul_constant_zero_apply, ← Equiv.sum_comp (contrEquiv1 readoutDot 128 rfl rfl).symm]
  refine Finset.sum_congr rfl fun k _ => ?_
  have hk := contrEquiv1_symm_val readoutDot 128 rfl rfl k
  have el : readoutDot.lhsIdx (ix2 p q) ((contrEquiv1 readoutDot 128 rfl rfl).symm k) = ix2 p k :=
    funext fun a => Fin.ext (by
      match a with
      | ⟨0, _⟩ => exact lhsRow _ _
      | ⟨1, _⟩ => exact (lhsCol _ _).trans hk)
  have er : readoutDot.rhsIdx (ix2 p q) ((contrEquiv1 readoutDot 128 rfl rfl).symm k) = ix2 k q :=
    funext fun a => Fin.ext (by
      match a with
      | ⟨0, _⟩ => exact (rhsRow _ _).trans hk
      | ⟨1, _⟩ => exact rhsCol _ _)
  rw [el, er]

/-- The bias, a one-entry vector viewed as a 1 × 1 block and repeated down the 4000 rows, reads its one entry
    in every row: both steps keep the row-major position `0`. -/
theorem bias_at (b : Vec Ideal S1 .f32) (p : Fin 4000) (q : Fin 1) :
    broadcastTo S4000x1 (shapeCast S1x1 b shapeCasts_S1_S1x1) broadcasts_S1x1_S4000x1 (ix2 p q) = b (ix1 q) := by
  refine (broadcastTo_apply _ broadcasts_S1x1_S4000x1 (ix2 p q) (ix2 (0 : Fin 1) (0 : Fin 1)) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
  · refine shapeCast_apply b shapeCasts_S1_S1x1 (ix2 (0 : Fin 1) (0 : Fin 1)) (ix1 q) ?_
    rw [Shape.rowMajor_val_one, Shape.rowMajor_val_two]
    show q.val = 0 * _ + 0
    omega

/-- The body's result at entry `(p, q)`: `(∑ k, x0 p k * w k q) + b q`. The narrowing of both operands and the
    cast of the left block to its own shape are the identity on the extended reals. -/
theorem payload_at (x0 : Vec Ideal S4000x128 .f32) (w : Vec Ideal S128x1 .f32) (b : Vec Ideal S1 .f32)
    (p : Fin 4000) (q : Fin 1) :
    k2_pay1 (F := Ideal) x0 w b (ix2 p q) = (∑ k : Fin 128, x0 (ix2 p k) * w (ix2 k q)) + b (ix1 q) := by
  unfold k2_pay1
  refine (addf_apply _ _ _).trans ?_
  refine congrArg₂ (· + ·) ((product_at _ _ p q).trans ?_) (bias_at b p q)
  refine Finset.sum_congr rfl fun k _ => ?_
  rw [truncf_apply, truncf_apply, shapeCast_self]

/-! ## One block written back -/

theorem zeros2 : (![0, 0] : Fin 2 → Nat) = fun _ => 0 := funext fun a => by fin_cases a <;> rfl
theorem zeros1 : (![0] : Fin 1 → Nat) = fun _ => 0 := funext fun a => by fin_cases a <;> rfl

/-- The block indices over the ten grid points: the feature block and the output block are both block `t` of
    their rows (and block `0` of their columns); the weight column and the bias are block `0` on every axis. -/
theorem block_indices : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 1) = 0
    ∧ win2_3.index t (1 : Fin 2) = 0
    ∧ win2_3.index t (0 : Fin 2) = t.val :=
  (by decide +kernel : ∀ t : Fin grid2.N, _)

/-- Entry `(p, q)` of what point `t` computes is the read-out at node `n`, the row of the arrays that row `p` of
    the point's blocks is: an element of a block sits at block index × block size + its coordinate in the block. -/
theorem payload_block (c : Dev nD) (t : Fin cfg2.N) (p : Fin 4000) (q : Fin 1) (n : Fin 40000)
    (hn : n.val = win2_3.index t (0 : Fin 2) * 4000 + 1 * p.val) :
    k2_pay1 (F := Ideal) (iblk2 V c 0 t) (iblk2 V c 1 t) (iblk2 V c 2 t) (ix2 p q)
      = Cert.Sage.readout (V c main_v39) (V c main_arg8) (V c main_arg9) (ix2 n q) := by
  obtain ⟨e00, e01, e10, e11, e20, e31, e30⟩ := block_indices t
  refine (payload_at (iblk2 V c 0 t) (iblk2 V c 1 t) (iblk2 V c 2 t) p q).trans ?_
  refine Eq.trans ?_ (Cert.Sage.readout_apply (V c main_v39) (V c main_arg8) (V c main_arg9) n q).symm
  refine congrArg₂ (· + ·) (Finset.sum_congr rfl fun k _ => congrArg₂ (· * ·) ?_ ?_) ?_
  · show V c main_v39 (((cfg2.win 0).blk t).view.emb (ix2 p k)) = V c main_v39 (ix2 n k)
    refine congrArg (V c main_v39) (funext fun a => Fin.ext ?_)
    match a with
    | ⟨0, _⟩ => show win2_0.index t (0 : Fin 2) * 4000 + 1 * p.val = n.val; rw [hn, e00]
    | ⟨1, _⟩ => show win2_0.index t (1 : Fin 2) * 128 + 1 * k.val = k.val; rw [e01]; omega
  · show V c main_arg8 (((cfg2.win 1).blk t).view.emb (ix2 k q)) = V c main_arg8 (ix2 k q)
    refine congrArg (V c main_arg8) (funext fun a => Fin.ext ?_)
    match a with
    | ⟨0, _⟩ => show win2_1.index t (0 : Fin 2) * 128 + 1 * k.val = k.val; rw [e10]; omega
    | ⟨1, _⟩ => show win2_1.index t (1 : Fin 2) * 1 + 1 * q.val = q.val; rw [e11]; omega
  · show V c main_arg9 (((cfg2.win 2).blk t).view.emb (ix1 q)) = V c main_arg9 (ix1 q)
    refine congrArg (V c main_arg9) (funext fun a => Fin.ext ?_)
    match a with
    | ⟨0, _⟩ => show win2_2.index t (0 : Fin 1) * 1 + 1 * q.val = q.val; rw [e20]; omega

/-- What point `t` writes back is block `t` of the read-out of the arrays as the region finds them: the body's one
    store fills the whole staging block with its result, whose entries `payload_block` reads. -/
theorem written_back (c : Dev nD) (t : Fin cfg2.N) :
    (dat2 (F := Ideal) V c).flushed 3 t
      = ((cfg2.win 3).blk t).view.read (Elt Ideal) (Cert.Sage.readout (V c main_v39) (V c main_arg8) (V c main_arg9)) := by
  show (cfg2.win 3).cut (grid2.coords t) ((dat2 (F := Ideal) V c).after 3 t) = _
  rw [after2_3]
  unfold out2_3
  rw [View.canon_unit_zero zeros2]
  simp only [View.ld_unit_zero (S := S4000x128) zeros2, View.ld_unit_zero (S := S128x1) zeros2,
    View.ld_unit_zero (S := S1) zeros1]
  funext j
  obtain ⟨p, q, rfl⟩ : ∃ (p : Fin 4000) (q : Fin 1), j = ix2 p q := ⟨j 0, j 1, eq_ix2 j⟩
  show k2_pay1 (F := Ideal) (iblk2 V c 0 t) (iblk2 V c 1 t) (iblk2 V c 2 t) (ix2 p q)
    = Cert.Sage.readout (V c main_v39) (V c main_arg8) (V c main_arg9) (((cfg2.win 3).blk t).view.emb (ix2 p q))
  obtain ⟨-, -, -, -, -, e31, -⟩ := block_indices t
  refine (payload_block V c t p q (((cfg2.win 3).blk t).view.emb (ix2 p q) 0) rfl).trans ?_
  refine congrArg (Cert.Sage.readout (V c main_v39) (V c main_arg8) (V c main_arg9)) (funext fun a => Fin.ext ?_)
  match a with
  | ⟨0, _⟩ => rfl
  | ⟨1, _⟩ => show q.val = win2_3.index t (1 : Fin 2) * 1 + 1 * q.val; rw [e31]; omega

/-! ## The ten blocks fill the output -/

/-- An index of the output array is in point `t`'s block iff each coordinate is in the block's range on its axis. -/
theorem mem_block (t : Fin cfg2.N) (i : S40000x1.Idx) :
    i ∈ ((cfg2.win 3).blk t).view.set ↔ ∀ a : Fin 2, win2_3.index t a * S4000x1.size a ≤ (i a).val
      ∧ (i a).val < win2_3.index t a * S4000x1.size a + S4000x1.size a := by
  show i ∈ ((View.whole main_v40).slice (win2_3.rect t)).set ↔ _
  rw [View.set_slice_whole, Rect.mem_set_unit]
  exact Iff.rfl

/-- Every row of the output array lies in some point's block: row `r` in the block of point `r / 4000`, since
    `4000 * (r / 4000) ≤ r < 4000 * (r / 4000) + 4000` and `r < 40000` puts `r / 4000` among the ten points. -/
theorem rows_covered (i : S40000x1.Idx) :
    ∃ t : Fin cfg2.N, (cfg2.win 3).flush t = true ∧ i ∈ ((cfg2.win 3).blk t).view.set := by
  have hi0 : (i 0).val < 40000 := (i 0).isLt
  have hi1 : (i 1).val < 1 := (i 1).isLt
  have hN : grid2.N = 10 := N_2
  let t : Fin cfg2.N := ⟨(i 0).val / 4000, by show (i 0).val / 4000 < grid2.N; rw [hN]; omega⟩
  obtain ⟨-, -, -, -, -, e31, e30⟩ := block_indices t
  have ht : t.val = (i 0).val / 4000 := rfl
  refine ⟨t, flush2_3 t, ?_⟩
  rw [mem_block]
  intro a
  match a with
  | ⟨0, _⟩ =>
    show win2_3.index t (0 : Fin 2) * 4000 ≤ (i 0).val ∧ (i 0).val < win2_3.index t (0 : Fin 2) * 4000 + 4000
    rw [e30, ht]; omega
  | ⟨1, _⟩ =>
    show win2_3.index t (1 : Fin 2) * 1 ≤ (i 1).val ∧ (i 1).val < win2_3.index t (1 : Fin 2) * 1 + 1
    rw [e31]; omega

/-- The output array after the region's ten points is the read-out of the feature array, the weight column and
    the bias as the region finds them. -/
theorem arr (c : Dev nD) : (dat2 (F := Ideal) V c).arrAt 3 cfg2.N
    = Cert.Sage.readout (V c main_v39) (V c main_arg8) (V c main_arg9) :=
  (dat2 (F := Ideal) V c).arrAt_eq_of_cover 3 (Cert.Sage.readout (V c main_v39) (V c main_arg8) (V c main_arg9))
    (fun t _ => written_back V c t) rows_covered

end Cert.KernelIdeal.Region2

end
-- ==== Proof.RefLayers.lean ====
/-
  The reference program's three dense stages are the specification's functions of the stages before them.

  The reference computes a GraphSAGE layer as `relu (((A · Wl) + b) + (X · Wr))`: a matrix product of the
  neighbourhood means with the left weights, the bias broadcast over the rows added to it, then the product of the
  node features with the right weights, then the maximum with a zero array. The specification writes the same
  entry as `max (((∑ k, A n k * Wl k f) + ∑ k, X n k * Wr k f) + b f) 0`: the bias last. Entry by entry the two
  differ only in the order of two additions, and addition on the extended reals is commutative and associative.
  The read-out is `(H · Wo) + bo` on both sides, term for term.

  The neighbourhood means (a gather and a scatter over the edges followed by a division) and, for the second
  layer and the read-out, the previous layer's output are never opened here: each statement holds for whatever
  arrays those stages are.
-/
import proofs.«133150_j34600256537252_1_alg».proof.Proof.Gen.ReferenceIdeal.Read
import proofs.«133150_j34600256537252_1_alg».proof.Proof.Spec

noncomputable section
namespace Cert.ReferenceIdeal.RefValue
open Idealize.ShloMosaic Idealize.ShloMosaic.TcCoe Idealize.SL.Sem
open Cert.ReferenceIdeal Cert.ReferenceIdeal.Read
open Idealize.ShloMosaic.ValueIdx
open scoped BigOperators

/-! ## Where each stage reads its operands, at the entry `(n, f)`

A matrix product's entry `(n, f)` reads row `n` of its left operand and column `f` of its right operand; a
bias broadcast over the rows reads the bias at the column `f`. One pair of equations per product of the reference,
and one equation per broadcast bias. -/

/-- First layer, means times left weights: the left operand is read at `(n, k)`. -/
private theorem l23 (n : Fin 40000) (f k : Fin 128) : lidx_main_v23 (ix2 n f) k = ix2 n k :=
  funext fun a => by match a with | ⟨0, _⟩ => rfl | ⟨1, _⟩ => rfl
/-- First layer, means times left weights: the right operand is read at `(k, f)`. -/
private theorem r23 (n : Fin 40000) (f k : Fin 128) : ridx_main_v23 (ix2 n f) k = ix2 k f :=
  funext fun a => by match a with | ⟨0, _⟩ => rfl | ⟨1, _⟩ => rfl
/-- First layer, features times right weights: the left operand is read at `(n, k)`. -/
private theorem l27 (n : Fin 40000) (f k : Fin 128) : lidx_main_v27 (ix2 n f) k = ix2 n k :=
  funext fun a => by match a with | ⟨0, _⟩ => rfl | ⟨1, _⟩ => rfl
/-- First layer, features times right weights: the right operand is read at `(k, f)`. -/
private theorem r27 (n : Fin 40000) (f k : Fin 128) : ridx_main_v27 (ix2 n f) k = ix2 k f :=
  funext fun a => by match a with | ⟨0, _⟩ => rfl | ⟨1, _⟩ => rfl
/-- First layer: the bias, broadcast to `[1,128]` and then over the 40000 rows, is read at `f`. -/
private theorem b25 (n : Fin 40000) (f : Fin 128) : idx_main_v24 (idx_main_v25 (ix2 n f)) = ix1 f :=
  funext fun a => by match a with | ⟨0, _⟩ => rfl
/-- Second layer, means times left weights: the left operand is read at `(n, k)`. -/
private theorem l49 (n : Fin 40000) (f k : Fin 128) : lidx_main_v49 (ix2 n f) k = ix2 n k :=
  funext fun a => by match a with | ⟨0, _⟩ => rfl | ⟨1, _⟩ => rfl
/-- Second layer, means times left weights: the right operand is read at `(k, f)`. -/
private theorem r49 (n : Fin 40000) (f k : Fin 128) : ridx_main_v49 (ix2 n f) k = ix2 k f :=
  funext fun a => by match a with | ⟨0, _⟩ => rfl | ⟨1, _⟩ => rfl
/-- Second layer, hidden features times right weights: the left operand is read at `(n, k)`. -/
private theorem l53 (n : Fin 40000) (f k : Fin 128) : lidx_main_v53 (ix2 n f) k = ix2 n k :=
  funext fun a => by match a with | ⟨0, _⟩ => rfl | ⟨1, _⟩ => rfl
/-- Second layer, hidden features times right weights: the right operand is read at `(k, f)`. -/
private theorem r53 (n : Fin 40000) (f k : Fin 128) : ridx_main_v53 (ix2 n f) k = ix2 k f :=
  funext fun a => by match a with | ⟨0, _⟩ => rfl | ⟨1, _⟩ => rfl
/-- Second layer: the bias, broadcast to `[1,128]` and then over the 40000 rows, is read at `f`. -/
private theorem b51 (n : Fin 40000) (f : Fin 128) : idx_main_v50 (idx_main_v51 (ix2 n f)) = ix1 f :=
  funext fun a => by match a with | ⟨0, _⟩ => rfl
/-- Read-out, hidden features times the output weights: the left operand is read at `(n, k)`. -/
private theorem l56 (n : Fin 40000) (f : Fin 1) (k : Fin 128) : lidx_main_v56 (ix2 n f) k = ix2 n k :=
  funext fun a => by match a with | ⟨0, _⟩ => rfl | ⟨1, _⟩ => rfl
/-- Read-out, hidden features times the output weights: the right operand is read at `(k, f)`. -/
private theorem r56 (n : Fin 40000) (f : Fin 1) (k : Fin 128) : ridx_main_v56 (ix2 n f) k = ix2 k f :=
  funext fun a => by match a with | ⟨0, _⟩ => rfl | ⟨1, _⟩ => rfl
/-- Read-out: the one-entry bias, broadcast to `[1,1]` and then over the 40000 rows, is read at its only entry,
    which is `f` because `f : Fin 1`. -/
private theorem b58 (n : Fin 40000) (f : Fin 1) : idx_main_v57 (idx_main_v58 (ix2 n f)) = ix1 f :=
  funext fun a => by match a with | ⟨0, _⟩ => exact Fin.ext (by have := f.isLt; show 0 = f.val; omega)

/-! ## The three stages -/

/-- The first layer. Entry `(n, f)` of the reference is
    `max (((∑ k, A n k * Wl k f) + b f) + ∑ k, X n k * Wr k f) 0` with `A` the neighbourhood means; moving the
    bias past the second sum gives the specification's entry. -/
theorem layer1_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = Cert.Sage.layer (val_main_v22 (F := Ideal) x0 x1) x0 x2 x3 x4 := by
  funext j
  obtain ⟨n, f, rfl⟩ : ∃ (n : Fin 40000) (f : Fin 128), j = ix2 n f := ⟨j 0, j 1, eq_ix2 j⟩
  rw [Cert.Sage.layer_apply, val_main_v29_apply, val_main_v28_apply, val_main_v26_apply, val_main_v23_apply,
    val_main_v25_apply, val_main_v24_apply, val_main_v27_apply, val_main_call0_v0_apply, val_main_call0_cst_apply]
  generalize val_main_v22 (F := Ideal) x0 x1 = A
  simp only [l23, r23, l27, r27, b25, Ideal.maximumf_def, Ideal.addf_def, Ideal.ofBits_def]
  rw [Cert.Sage.add_bias_comm]

/-- The second layer: the same entry over the second neighbourhood means, the first layer's output and the second
    layer's weights and bias. Neither of the two earlier stages is opened. -/
theorem layer2_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = Cert.Sage.layer (val_main_v48 (F := Ideal) x0 x1 x2 x3 x4) (val_main_v29 (F := Ideal) x0 x1 x2 x3 x4) x5 x6 x7 := by
  funext j
  obtain ⟨n, f, rfl⟩ : ∃ (n : Fin 40000) (f : Fin 128), j = ix2 n f := ⟨j 0, j 1, eq_ix2 j⟩
  rw [Cert.Sage.layer_apply, val_main_v55_apply, val_main_v54_apply, val_main_v52_apply, val_main_v49_apply,
    val_main_v51_apply, val_main_v50_apply, val_main_v53_apply, val_main_call1_v0_apply, val_main_call1_cst_apply]
  generalize val_main_v48 (F := Ideal) x0 x1 x2 x3 x4 = A
  generalize val_main_v29 (F := Ideal) x0 x1 x2 x3 x4 = H
  simp only [l49, r49, l53, r53, b51, Ideal.maximumf_def, Ideal.addf_def, Ideal.ofBits_def]
  rw [Cert.Sage.add_bias_comm]

/-- The read-out: entry `(n, f)` is `(∑ k, H n k * Wo k f) + bo f` on both sides, with `H` the second layer's
    output, which is not opened. -/
theorem readout_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x1, .f32⟩ : BufTy).Contents (Elt Ideal))
    (x9 : (⟨S1, .f32⟩ : BufTy).Contents (Elt Ideal)) :
    val_main_v59 (F := Ideal) x0 x1 x2 x3 x4 x5 x6 x7 x8 x9
      = Cert.Sage.readout (val_main_v55 (F := Ideal) x0 x1 x2 x3 x4 x5 x6 x7) x8 x9 := by
  funext j
  obtain ⟨n, f, rfl⟩ : ∃ (n : Fin 40000) (f : Fin 1), j = ix2 n f := ⟨j 0, j 1, eq_ix2 j⟩
  rw [Cert.Sage.readout_apply, val_main_v59_apply, val_main_v56_apply, val_main_v58_apply, val_main_v57_apply]
  generalize val_main_v55 (F := Ideal) x0 x1 x2 x3 x4 x5 x6 x7 = H
  simp only [l56, r56, b58, Ideal.addf_def]

end Cert.ReferenceIdeal.RefValue
end
-- ==== Proof.KernelValue.lean ====
/-
  The idealized kernel's result as a function of the argument arrays: the reference's.

  The boundary fold is walked from the result back to the launch memory. The read-out's region leaves
  `h2 · Wo + bo`; its input `h2` is what the second layer's region left, `relu (means2 · W2l + h1 · W2r + b2)`; the
  second means are host operations on `h1` and on the edge bookkeeping of the first stretch; `h1` is what the first
  layer's region left, `relu (means1 · W1l + x · W1r + b1)`; the first means are host operations on the arguments.
  Stage by stage these are the reference's stages of the same arguments: the regions by their whole-array functions,
  the means by `x * (1 / d) = x / d` for `d = max deg 1`, the layers by moving the bias across one addition.
-/
import proofs.«133150_j34600256537252_1_alg».proof.Proof.HostMeans
import proofs.«133150_j34600256537252_1_alg».proof.Proof.Region0
import proofs.«133150_j34600256537252_1_alg».proof.Proof.Region1
import proofs.«133150_j34600256537252_1_alg».proof.Proof.Region2
import proofs.«133150_j34600256537252_1_alg».proof.Proof.RefLayers

set_option maxRecDepth 16384

noncomputable section

namespace Cert.KernelIdeal.ResultValue

open Idealize.ShloMosaic Idealize.ShloMosaic.TcCoe Idealize.SL.Sem Idealize.ShloMosaic.StableHlo
open Cert.KernelIdeal Cert.KernelIdeal.Gen Cert.KernelIdeal.HostMeans

variable (m : (ℓ : Loc nD τ sig) → Buf (Elt Ideal) ℓ) (ρ : Dev nD → PrngReg)

/-! ## The first layer's output -/

/-- The first region leaves `h1 = relu (means1 · W1l + x · W1r + b1)` in its output array: its blocks tile the array,
    each the layer's function of the rows it covers; the means are the reference's (`means1_eq`), and the reference's
    first layer is the same function of them with the bias added in another place. -/
theorem h1_eq (c : Dev nD) : W2 m ρ c (Proc.devRef .tc main_v25)
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.KernelIdeal.Region0.arr (V1 m ρ) c).trans ?_)
  rw [means1_eq, entry_arg0, entry_arg2, entry_arg3, entry_arg4]
  exact (Cert.ReferenceIdeal.RefValue.layer1_eq _ _ _ _ _).symm

/-! ## The host operations between the two layers -/

/-- The region in between wrote neither row of the edge list nor the reciprocals: the second stretch finds them as the
    first one left them. -/
theorem src_eq2 (c : Dev nD) : W2 m ρ c (Proc.devRef .tc main_v1) = Cert.ReferenceIdeal.Read.val_main_v1 (F := Ideal) (m ((c : Thread nD τ).loc main_arg1)) :=
  (W2_of_ne m ρ c main_v1 (by decide)).trans (src_eq m ρ c)
theorem dst_eq2 (c : Dev nD) : W2 m ρ c (Proc.devRef .tc main_v3) = Cert.ReferenceIdeal.Read.val_main_v3 (F := Ideal) (m ((c : Thread nD τ).loc main_arg1)) :=
  (W2_of_ne m ρ c main_v3 (by decide)).trans (dst_eq m ρ c)
theorem recip_eq2 (c : Dev nD) : W2 m ρ c (Proc.devRef .tc main_v11)
    = Host.divf (broadcastInDim S40000 ![] bcast_S_S40000 (constant (F := Ideal) S_ .f32 0x3F800000#32)) (maximumf (Cert.ReferenceIdeal.Read.val_main_v43 (F := Ideal) (m ((c : Thread nD τ).loc main_arg1))) (broadcastInDim S40000 ![] bcast_S_S40000 (constant (F := Ideal) S_ .f32 0x3F800000#32))) :=
  (W2_of_ne m ρ c main_v11 (by decide)).trans (recip_eq m ρ c)

/-- The second neighbourhood means are the reference's: the same sum over incoming edges of the source rows of `h1`,
    times the reciprocal of `max deg 1` here and divided by `max deg 1` there. -/
theorem means2_eq (c : Dev nD) : V3 m ρ c main_v38
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v38) = _
  after_results_simp
  rw [h1_eq, src_eq2, dst_eq2, recip_eq2]
  refine (mean_eq _ _).trans ?_
  rfl

/-- The second stretch does not write the first layer's output: the second region finds `h1` there. -/
theorem h1_entry (c : Dev nD) : V3 m ρ c main_v25
    = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v25) = _
  after_results_simp
  exact h1_eq m ρ c

/-- Nothing before the second region writes argument 5. -/
theorem entry1_arg5 (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp
/-- Nothing before the second region writes argument 6. -/
theorem entry1_arg6 (c : Dev nD) : V3 m ρ c main_arg6 = m ((c : Thread nD τ).loc main_arg6) := by
  show StableHlo.after hostOps1 (W2 m ρ c) (Proc.devRef .tc main_arg6) = _
  after_results_simp
  rw [W2_of_ne m ρ c main_arg6 (by decide)]
  show StableHlo.after hostOps0 (W0 m ρ c) (Proc.devRef .tc main_arg6) = _
  after_results_simp
/-- Nothing before the second region writes argument 7. -/
theorem entry1_arg7 (c : Dev nD) : V3 m ρ c main_arg7 = m ((c : Thread nD τ).loc main_arg7) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

/-! ## The second layer's output -/

/-- The second region leaves `h2 = relu (means2 · W2l + h1 · W2r + b2)` in its output array. -/
theorem h2_eq (c : Dev nD) : V4 m ρ c main_v39
    = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Cert.KernelIdeal.Region1.arr (V3 m ρ) c).trans ?_)
  rw [means2_eq, h1_entry, entry1_arg5, entry1_arg6, entry1_arg7]
  exact (Cert.ReferenceIdeal.RefValue.layer2_eq _ _ _ _ _ _ _ _).symm

/-- Nothing before the read-out's region writes argument 8. -/
theorem entry2_arg8 (c : Dev nD) : V4 m ρ c main_arg8 = m ((c : Thread nD τ).loc main_arg8) := by
  show W4 m ρ c (Proc.devRef .tc main_arg8) = _
  rw [W4_of_ne m ρ c main_arg8 (by decide)]
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp
/-- Nothing before the read-out's region writes argument 9. -/
theorem entry2_arg9 (c : Dev nD) : V4 m ρ c main_arg9 = m ((c : Thread nD τ).loc main_arg9) := by
  show W4 m ρ c (Proc.devRef .tc main_arg9) = _
  rw [W4_of_ne m ρ c main_arg9 (by decide)]
  show StableHlo.after hostOps1 (W2 m ρ c) (Proc.devRef .tc main_arg9) = _
  after_results_simp
  rw [W2_of_ne m ρ c main_arg9 (by decide)]
  show StableHlo.after hostOps0 (W0 m ρ c) (Proc.devRef .tc main_arg9) = _
  after_results_simp

/-! ## The result -/

/-- The result array ends at the reference's result as a function of the argument arrays: the read-out
    `h2 · Wo + bo` of the second layer's output. -/
theorem result_eq (c : Dev nD) : W5 m ρ c (Proc.devRef .tc main_v40)
    = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W5_arr m ρ c 3).trans ((Cert.KernelIdeal.Region2.arr (V4 m ρ) c).trans ?_)
  rw [h2_eq, entry2_arg8, entry2_arg9]
  exact (Cert.ReferenceIdeal.RefValue.readout_eq _ _ _ _ _ _ _ _ _ _).symm

end Cert.KernelIdeal.ResultValue

end
-- ==== Proof.lean ====
/-
  The certificate of a GraphSAGE network (two mean-aggregation layers with ReLU and a linear read-out) computed by three
  tiled matrix-product regions against its plain array-language reference, over the extended reals.

  Both programs compute, from the node features `x` and the edge list, the in-degrees, the neighbourhood means
  (a sum over incoming edges of the source rows, normalised by `max deg 1`), two layers
  `relu (means · Wl + h · Wr + b)` and the read-out `h2 · Wo + bo`. They differ in three ways, none visible on the
  extended reals: the kernel multiplies by the reciprocal `1 / max deg 1` where the reference divides (equal because
  the divisor is at least 1, so not 0); the kernel adds the bias after the second product, the reference between the two
  (commutativity and associativity of addition); and the kernel computes each product block by block over row tiles
  of 4000 nodes, in a narrower float format that the idealization reads as the identity (a product's entry depends only
  on one row, so the tiles cover the array with the whole-array function). No finiteness of the inputs is used.

  Spec.lean states the layer and the read-out once; Region0/1/2.lean show each region's output array is that function of
  the arrays it finds; HostMeans.lean and KernelValue.lean walk the kernel's boundary contents back to the arguments and
  identify every stage with the reference's; RefLayers.lean reads the reference's dense stages as the same functions;
  KernelRun.lean is the kernel's run with the result named.
-/
import proofs.«133150_j34600256537252_1_alg».proof.Defs
import proofs.«133150_j34600256537252_1_alg».proof.Proof.Gen.Kernel
import proofs.«133150_j34600256537252_1_alg».proof.Proof.Gen.Kernel.Skeleton
import proofs.«133150_j34600256537252_1_alg».proof.Proof.Gen.Kernel.Launch
import proofs.«133150_j34600256537252_1_alg».proof.Proof.Gen.Kernel.Points
import proofs.«133150_j34600256537252_1_alg».proof.Proof.Gen.Kernel.Frame
import proofs.«133150_j34600256537252_1_alg».proof.Proof.Gen.KernelIdeal
import proofs.«133150_j34600256537252_1_alg».proof.Proof.Gen.KernelIdeal.Skeleton
import proofs.«133150_j34600256537252_1_alg».proof.Proof.Gen.KernelIdeal.Launch
import proofs.«133150_j34600256537252_1_alg».proof.Proof.Gen.KernelIdeal.Points
import proofs.«133150_j34600256537252_1_alg».proof.Proof.Gen.KernelIdeal.Frame
import proofs.«133150_j34600256537252_1_alg».proof.Proof.Gen.ReferenceIdeal
import proofs.«133150_j34600256537252_1_alg».proof.Proof.Gen.ReferenceIdeal.Run
import proofs.«133150_j34600256537252_1_alg».proof.Proof.Gen.ReferenceIdeal.Read
import proofs.«133150_j34600256537252_1_alg».proof.Proof.Gen.Pre_finite_inputs
import proofs.«133150_j34600256537252_1_alg».proof.Proof.KernelRun
import proofs.«133150_j34600256537252_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories agreeing on the arguments both idealized programs end with the same result array: the
    reference's last stage as a function of the argument arrays. The kernel's run ends there by the walk back through
    its boundary fold (`ResultValue.result_eq`); the reference's by its own run, its arguments rewritten to the
    kernel's by the agreement. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.ResultValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v59_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
